-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S16384x1024 : Shape := ⟨2, ![16384, 1024]⟩
abbrev S1024x3072 : Shape := ⟨2, ![1024, 3072]⟩
abbrev S3072 : Shape := ⟨1, ![3072]⟩
abbrev S512x1024 : Shape := ⟨2, ![512, 1024]⟩
abbrev S512x3072 : Shape := ⟨2, ![512, 3072]⟩
abbrev S1x3072 : Shape := ⟨2, ![1, 3072]⟩
abbrev S1x1024 : Shape := ⟨2, ![1, 1024]⟩
abbrev S512 : Shape := ⟨1, ![512]⟩
abbrev S512x1 : Shape := ⟨2, ![512, 1]⟩

abbrev nBuf : Space → Nat
  | .hbm => 20
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S16384x1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x3072, .bf16⟩
  | .hbm, ⟨16, _⟩ => ⟨S3072, .f32⟩
  | .hbm, ⟨17, _⟩ => ⟨S1024x1024, .bf16⟩
  | .hbm, ⟨18, _⟩ => ⟨S16384x1024, .f32⟩
  | .hbm, ⟨19, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S1024x1024, .bf16⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S512x1024, .f32⟩
  | .local _ .vmem, ⟨9, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x1024_S16384x1024 : S4x4096x1024.ShapeCasts S16384x1024
  bitsLt_bf16_f32 : FTy.bits .bf16 < FTy.bits .f32
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S16384x1024_S4x4096x1024 : S16384x1024.ShapeCasts S4x4096x1024
  dot_S512x1024_S1024x3072_S512x3072_1_0_0_1_n_n_wf : DotDims.WF S512x1024 S1024x3072 S512x3072 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .f32 = 32 ∨ (Rect.block (s := S16384x1024) S512x1024.size (cc0_transform_7 i) (hinb0_7 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1, .f32⟩
  | .hbm, ⟨61, _⟩ => ⟨S4x4096x1024, .f32⟩
  | .hbm, ⟨62, _⟩ => ⟨S4x4096x1024, .f32⟩
  | .hbm, ⟨63, _⟩ => ⟨S1x1x1024, .f32⟩
  | .hbm, ⟨64, _⟩ => ⟨S4x4096x1024, .f32⟩
  | .hbm, ⟨65, _⟩ => ⟨S4x4096x1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  dot_S4x4096x1024_S1024x1024_S4x4096x1024_2_0_01_1_n_n_wf : DotDims.WF S4x4096x1024 S1024x1024 S4x4096x1024 [2] [0] [0, 1] [1] [] []

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf

class Facts : Prop extends Facts₀ where

variable [Facts]
-- ==== Proof.GrnEntryK.lean ====
/-
  The region's entry for the gated residual network kernel: what every buffer of the core holds when the one
  pallas_call is entered (the seven host lines before it folded over the launch memory), each operand window's block
  at a grid point read off its array there, the block of 512 rows the body leaves in the output window (its one
  whole-block store over the loaded blocks), and the proof data of the pipeline built from these: an input window's
  buffer is left at its block, the output window's at the stored block.  Stated for any float instance.
-/
import proofs.«157899_j67027259621479_2_alg».proof.Proof.Gen.Kernel.Launch
import proofs.«157899_j67027259621479_2_alg».proof.Proof.Gen.Kernel.Skeleton
import proofs.«157899_j67027259621479_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Grn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

variable (m : (ℓ : Loc nD τ sig) → Buf (Elt F) ℓ) (ρ : Dev nD → PrngReg)

/-- Core `c`'s buffer contents when the region is entered: the host lines before it, folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a whole buffer -/

abbrev rRows : Rect S512x1024 := Rect.unit (s := S512x1024) ![0, 0] S512x1024.size Facts₀.inb_S512x1024_S512x1024_0_0
abbrev rWcat : Rect S1024x3072 := Rect.unit (s := S1024x3072) ![0, 0] S1024x3072.size Facts₀.inb_S1024x3072_S1024x3072_0_0
abbrev rBcat : Rect S3072 := Rect.unit (s := S3072) ![0] S3072.size Facts₀.inb_S3072_S3072_0
abbrev rW2 : Rect S1024x1024 := Rect.unit (s := S1024x1024) ![0, 0] S1024x1024.size Facts₀.inb_S1024x1024_S1024x1024_0_0
abbrev rVec : Rect S1024 := Rect.unit (s := S1024) ![0] S1024.size Facts₀.inb_S1024_S1024_0

/-- The output window's buffer after the body, from the input windows' blocks: the one store of the normalised rows
    (the skeleton's payloads over the loaded blocks). -/
def blockOut (x0 : Vec F S512x1024 .f32) (x1 : Vec F S1024x3072 .bf16) (x2 : Vec F S3072 .f32) (x3 : Vec F S1024x1024 .bf16)
    (x4 : Vec F S1024 .f32) (x5 : Vec F S1024 .f32) (x6 : Vec F S1024 .f32) : Vec F S512x1024 .f32 :=
  View.canon [⟨rRows, k0_pay1 (View.ld x5 rVec) (View.ld x6 rVec)
    (k0_pay4 (View.ld x0 rRows) (View.ld x1 rWcat) (View.ld x2 rBcat) (View.ld x3 rW2) (View.ld x4 rVec))
    (k0_pay5 (View.ld x0 rRows) (View.ld x1 rWcat) (View.ld x2 rBcat) (View.ld x3 rW2) (View.ld x4 rVec))⟩]

/-- The proof data of the one pipeline on core `c`: the arrays as the region finds them; after the body at point `t`
    each input's buffer at its block and the output's at `blockOut` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockOut (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = blockOut (iblk m c 0 t) (iblk m c 1 t) (iblk m c 2 t) (iblk m c 3 t) (iblk m c 4 t) (iblk m c 5 t) (iblk m c 6 t) := by dsimp only [dats]

end Cert.Kernel.Grn

end
-- ==== Proof.GrnFrameK.lean ====
/-
  The frame of the gated residual network program: its one pallas_call, entered after seven host lines and followed
  by one reshape, runs to the end at every grid point without a fault and leaves the eleven argument arrays as they
  were launched.  The body is run symbolically once, on whole staging buffers holding arbitrary blocks: it loads the
  seven input blocks and the output buffer, and stores one whole block into the output buffer; the pipeline's
  launch theorem for a region continued by host lines then gives the run, with every array of the pipeline named
  after the run.  Stated for any float instance.
-/
import proofs.«157899_j67027259621479_2_alg».proof.Proof.GrnEntryK

set_option maxRecDepth 16384

noncomputable section

namespace Cert.Kernel.Grn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- @main is the host lines before the region, the region, and the reshape after it: it reduces to the region
    continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (only its own result buffer, which is no window's array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The reshape after the region does not write argument 0, which no window stages: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The reshape after the region does not write argument 1, which no window stages: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The reshape after the region does not write argument 2, which no window stages: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The reshape after the region does not write argument 3, which no window stages: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- The reshape after the region does not write argument 5, which no window stages: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- The reshape after the region does not write argument 6, which no window stages: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- The reshape after the region does not write argument 7, which no window stages: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- The reshape after the region does not write argument 8, which no window stages: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The input windows' staging buffers -/

/-- Input window 0's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays in a final state of the frame run: an argument a window stages is read off the library's array
    after the run (an input window's array is never written), an argument no window stages off the other buffers' clause. -/
theorem kept_of (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).1 4).trans (((dats 0 c).arrAt_in 4 rfl _).trans ((hA c 4).trans (V_main_arg4 m c))),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).1 5).trans (((dats 0 c).arrAt_in 5 rfl _).trans ((hA c 5).trans (V_main_arg9 m c))),
    ((h c).1 6).trans (((dats 0 c).arrAt_in 6 rfl _).trans ((hA c 6).trans (V_main_arg10 m c)))⟩

/-- The frame from a frame run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of m dats hA r h c) h

/-! ## The body's triple -/

/-- The one store takes the whole output buffer. -/
theorem cover_out (p0 : Vec F S512x1024 .f32) (y : S512x1024.Idx) :
    ∃ pc ∈ ([⟨rRows, p0⟩] : List (View.Piece (Elt F) S512x1024 .f32)), y ∈ pc.1.set :=
  View.cover_of_tiled [⟨rRows, p0⟩] S512x1024.size (by rfl) y

set_option maxHeartbeats 1000000 in
/-- The kernel body on whole staging memrefs, the inputs' at read contents and the output's at anything, runs to the
    continuation holding the inputs' as they were and the output's at `blockOut` of the inputs'. -/
theorem sound_kernel (c : Dev nD) (E : Set ℕ) (i : grid0.Coords)
    (arg1 : Memref sig .tc .vmem S512x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S512x1024 .f32) (harg8 : arg8.IsWhole)
    (x0 : Vec F S512x1024 .f32) (x1 : Vec F S1024x3072 .bf16) (x2 : Vec F S3072 .f32) (x3 : Vec F S1024x1024 .bf16) (x4 : Vec F S1024 .f32) (x5 : Vec F S1024 .f32) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (blockOut x0 x1 x2 x3 x4 x5 x6)) -∗ K ⟨⟩))
      ⊢ wp frame (wpE (defs₀ (F := F)) Variants.none c none) E (cc0__grn_kernel i arg1 harg1 arg2 harg2 arg3 harg3 arg4 harg4 arg5 harg5 arg6 harg6 arg7 harg7 arg8 harg8) K := by
  simp only [cc0__grn_kernel_eq_skeleton]; unfold cc0__grn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_out _)

/-! ## The body obligation, at a generic point -/

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Grn

end
-- ==== Proof.GrnEntryI.lean ====
/-
  The region's entry for the gated residual network kernel: what every buffer of the core holds when the one
  pallas_call is entered (the seven host lines before it folded over the launch memory), each operand window's block
  at a grid point read off its array there, the block of 512 rows the body leaves in the output window (its one
  whole-block store over the loaded blocks), and the proof data of the pipeline built from these: an input window's
  buffer is left at its block, the output window's at the stored block.  Stated for any float instance.
-/
import proofs.«157899_j67027259621479_2_alg».proof.Proof.Gen.KernelIdeal.Launch
import proofs.«157899_j67027259621479_2_alg».proof.Proof.Gen.KernelIdeal.Skeleton
import proofs.«157899_j67027259621479_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Grn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

variable (m : (ℓ : Loc nD τ sig) → Buf (Elt F) ℓ) (ρ : Dev nD → PrngReg)

/-- Core `c`'s buffer contents when the region is entered: the host lines before it, folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a whole buffer -/

abbrev rRows : Rect S512x1024 := Rect.unit (s := S512x1024) ![0, 0] S512x1024.size Facts₀.inb_S512x1024_S512x1024_0_0
abbrev rWcat : Rect S1024x3072 := Rect.unit (s := S1024x3072) ![0, 0] S1024x3072.size Facts₀.inb_S1024x3072_S1024x3072_0_0
abbrev rBcat : Rect S3072 := Rect.unit (s := S3072) ![0] S3072.size Facts₀.inb_S3072_S3072_0
abbrev rW2 : Rect S1024x1024 := Rect.unit (s := S1024x1024) ![0, 0] S1024x1024.size Facts₀.inb_S1024x1024_S1024x1024_0_0
abbrev rVec : Rect S1024 := Rect.unit (s := S1024) ![0] S1024.size Facts₀.inb_S1024_S1024_0

/-- The output window's buffer after the body, from the input windows' blocks: the one store of the normalised rows
    (the skeleton's payloads over the loaded blocks). -/
def blockOut (x0 : Vec F S512x1024 .f32) (x1 : Vec F S1024x3072 .bf16) (x2 : Vec F S3072 .f32) (x3 : Vec F S1024x1024 .bf16)
    (x4 : Vec F S1024 .f32) (x5 : Vec F S1024 .f32) (x6 : Vec F S1024 .f32) : Vec F S512x1024 .f32 :=
  View.canon [⟨rRows, k0_pay1 (View.ld x5 rVec) (View.ld x6 rVec)
    (k0_pay4 (View.ld x0 rRows) (View.ld x1 rWcat) (View.ld x2 rBcat) (View.ld x3 rW2) (View.ld x4 rVec))
    (k0_pay5 (View.ld x0 rRows) (View.ld x1 rWcat) (View.ld x2 rBcat) (View.ld x3 rW2) (View.ld x4 rVec))⟩]

/-- The proof data of the one pipeline on core `c`: the arrays as the region finds them; after the body at point `t`
    each input's buffer at its block and the output's at `blockOut` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockOut (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = blockOut (iblk m c 0 t) (iblk m c 1 t) (iblk m c 2 t) (iblk m c 3 t) (iblk m c 4 t) (iblk m c 5 t) (iblk m c 6 t) := by dsimp only [dats]

end Cert.KernelIdeal.Grn

end
-- ==== Proof.GrnFrameI.lean ====
/-
  The frame of the gated residual network program: its one pallas_call, entered after seven host lines and followed
  by one reshape, runs to the end at every grid point without a fault and leaves the eleven argument arrays as they
  were launched.  The body is run symbolically once, on whole staging buffers holding arbitrary blocks: it loads the
  seven input blocks and the output buffer, and stores one whole block into the output buffer; the pipeline's
  launch theorem for a region continued by host lines then gives the run, with every array of the pipeline named
  after the run.  Stated for any float instance.
-/
import proofs.«157899_j67027259621479_2_alg».proof.Proof.GrnEntryI

set_option maxRecDepth 16384

noncomputable section

namespace Cert.KernelIdeal.Grn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- @main is the host lines before the region, the region, and the reshape after it: it reduces to the region
    continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (only its own result buffer, which is no window's array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The reshape after the region does not write argument 0, which no window stages: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The reshape after the region does not write argument 1, which no window stages: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The reshape after the region does not write argument 2, which no window stages: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The reshape after the region does not write argument 3, which no window stages: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- The reshape after the region does not write argument 5, which no window stages: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- The reshape after the region does not write argument 6, which no window stages: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- The reshape after the region does not write argument 7, which no window stages: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- The reshape after the region does not write argument 8, which no window stages: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The input windows' staging buffers -/

/-- Input window 0's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays in a final state of the frame run: an argument a window stages is read off the library's array
    after the run (an input window's array is never written), an argument no window stages off the other buffers' clause. -/
theorem kept_of (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).1 4).trans (((dats 0 c).arrAt_in 4 rfl _).trans ((hA c 4).trans (V_main_arg4 m c))),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).1 5).trans (((dats 0 c).arrAt_in 5 rfl _).trans ((hA c 5).trans (V_main_arg9 m c))),
    ((h c).1 6).trans (((dats 0 c).arrAt_in 6 rfl _).trans ((hA c 6).trans (V_main_arg10 m c)))⟩

/-- The frame from a frame run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of m dats hA r h c) h

/-! ## The body's triple -/

/-- The one store takes the whole output buffer. -/
theorem cover_out (p0 : Vec F S512x1024 .f32) (y : S512x1024.Idx) :
    ∃ pc ∈ ([⟨rRows, p0⟩] : List (View.Piece (Elt F) S512x1024 .f32)), y ∈ pc.1.set :=
  View.cover_of_tiled [⟨rRows, p0⟩] S512x1024.size (by rfl) y

set_option maxHeartbeats 1000000 in
/-- The kernel body on whole staging memrefs, the inputs' at read contents and the output's at anything, runs to the
    continuation holding the inputs' as they were and the output's at `blockOut` of the inputs'. -/
theorem sound_kernel (c : Dev nD) (E : Set ℕ) (i : grid0.Coords)
    (arg1 : Memref sig .tc .vmem S512x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S512x1024 .f32) (harg8 : arg8.IsWhole)
    (x0 : Vec F S512x1024 .f32) (x1 : Vec F S1024x3072 .bf16) (x2 : Vec F S3072 .f32) (x3 : Vec F S1024x1024 .bf16) (x4 : Vec F S1024 .f32) (x5 : Vec F S1024 .f32) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (blockOut x0 x1 x2 x3 x4 x5 x6)) -∗ K ⟨⟩))
      ⊢ wp frame (wpE (defs₀ (F := F)) Variants.none c none) E (cc0__grn_kernel i arg1 harg1 arg2 harg2 arg3 harg3 arg4 harg4 arg5 harg5 arg6 harg6 arg7 harg7 arg8 harg8) K := by
  simp only [cc0__grn_kernel_eq_skeleton]; unfold cc0__grn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_out _)

/-! ## The body obligation, at a generic point -/

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Grn

end
-- ==== Proof.GrnSpec.lean ====
/-
  One row of the gated residual network, over the extended reals.

  For a row x of 1024 features, four 1024 × 1024 weight matrices and four bias rows:
    hidden   h = max (x · W1 + b1) 0            (elementwise)
    value    v = h · W2 + b2
    gate     g = logistic (x · Wg + bg)
    skip     s = x · Ws + bs
    mixed    y = v * g + s
  and the row is then normalised over its 1024 features: with mean μ = (Σ y) / 1024 and variance
  σ² = (Σ (y − μ)²) / 1024, the output is (y − μ) · rsqrt (σ² + ε) · γ + β.  A product x · W at column j is the
  plain sum over the 1024 rows of W; the float constants 0, 1024 and ε are kept as their bit patterns, so that the same
  word on both sides of a comparison is never evaluated.
-/
import Idealize.ShloMosaic.PureOps.Ideal

noncomputable section

namespace Cert.Grn

open Idealize.ShloMosaic

/-- `x · W + b` at column `j`. -/
def affine (x : Fin 1024 → EReal) (w : Fin 1024 → Fin 1024 → EReal) (b : Fin 1024 → EReal) (j : Fin 1024) : EReal :=
  (∑ k : Fin 1024, x k * w k j) + b j

/-- The row before normalisation: the value branch, gated, plus the skip branch. -/
def mixed (x : Fin 1024 → EReal) (w1 wg ws w2 : Fin 1024 → Fin 1024 → EReal) (b1 bg bs b2 : Fin 1024 → EReal)
    (j : Fin 1024) : EReal :=
  affine (fun u => max (affine x w1 b1 u) (Ideal.ofBits .f32 0x00000000#32)) w2 b2 j * Ideal.logistic (affine x wg bg j)
    + affine x ws bs j

/-- The mean of 1024 entries: their sum divided by the float 1024. -/
def mean (y : Fin 1024 → EReal) : EReal :=
  Ideal.div (∑ j : Fin 1024, y j) (Ideal.ofBits .f32 0x44800000#32)

/-- A row normalised to zero mean and unit variance (up to ε), scaled by γ and shifted by β. -/
def normalised (y : Fin 1024 → EReal) (gamma beta : Fin 1024 → EReal) (j : Fin 1024) : EReal :=
  (y j - mean y) * Ideal.rsqrt (mean (fun q => (y q - mean y) * (y q - mean y)) + Ideal.ofBits .f32 0x3A83126F#32) * gamma j
    + beta j

/-- Column `u` of the `n`-th of the three 1024-column panels of a 3072-column array: the three projections that read
    the raw row are stored side by side, hidden | gate | skip. -/
def panel (n : Fin 3) (u : Fin 1024) : Fin 3072 := ⟨1024 * n.val + u.val, by omega⟩

theorem panel_val (n : Fin 3) (u : Fin 1024) : (panel n u).val = 1024 * n.val + u.val := rfl

/-- One output row of the network. -/
def rowOut (x : Fin 1024 → EReal) (w1 wg ws w2 : Fin 1024 → Fin 1024 → EReal) (b1 bg bs b2 gamma beta : Fin 1024 → EReal)
    (j : Fin 1024) : EReal :=
  normalised (mixed x w1 wg ws w2 b1 bg bs b2) gamma beta j

end Cert.Grn

end
-- ==== Proof.GrnBlock.lean ====
/-
  The value of the gated residual network kernel's body: the block of 512 rows it stores, read at a row p and a
  feature q, is the shared per-row specification (Cert.Grn.rowOut) of row p of the loaded block of rows, with the
  three projections that read the raw row taken from the three 1024-column panels of the concatenated weight and bias.

  The body's arithmetic is read at an index layer by layer.  A product of a block of rows with a weight matrix into a
  zero accumulator is, at (p, c), the sum over the 1024 contracted positions of row p times column c.  The bias row is
  broadcast over the rows; the three panels are column slices at offsets 0, 1024 and 2048; the lane sums of the
  normalisation are sums over the 1024 features of a row, kept as a column and broadcast back over the features.
  Every float operation is, over the extended reals, the operation of the specification, and the narrowing to the
  short float format is the identity there.
-/
import proofs.«157899_j67027259621479_2_alg».proof.Proof.GrnEntryI
import proofs.«157899_j67027259621479_2_alg».proof.Proof.GrnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.GrnValue

open Cert.KernelIdeal Cert.KernelIdeal.Gen Cert.KernelIdeal.Grn Idealize.ShloMosaic
open Idealize.ShloMosaic.ValueIdx

/-! ## Two layout operations read at an index: a column kept after a lane sum -/

/-- An `[a]` array cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products into a zero accumulator, read at an index -/

theorem mmCat_lhs0 (i : S512x3072.Idx) (q : dot_S512x1024_S1024x3072_S512x3072_1_0_0_1_n_n.contr.Idx) : (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem mmCat_lhs1 (i : S512x3072.Idx) (q : dot_S512x1024_S1024x3072_S512x3072_1_0_0_1_n_n.contr.Idx) : (dot_S512x1024_S1024x3072_S512x3072_1_0_0_1_n_n.lhsIdx i q 1).val = (q ⟨0, by decide⟩).val :=
  dot_S512x1024_S1024x3072_S512x3072_1_0_0_1_n_n.lhsIdx_val_of_single rfl i q
theorem mmCat_rhs0 (i : S512x3072.Idx) (q : dot_S512x1024_S1024x3072_S512x3072_1_0_0_1_n_n.contr.Idx) : (dot_S512x1024_S1024x3072_S512x3072_1_0_0_1_n_n.rhsIdx i q 0).val = (q ⟨0, by decide⟩).val :=
  dot_S512x1024_S1024x3072_S512x3072_1_0_0_1_n_n.rhsIdx_val_of_single rfl i q
theorem mmCat_rhs1 (i : S512x3072.Idx) (q : dot_S512x1024_S1024x3072_S512x3072_1_0_0_1_n_n.contr.Idx) : (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The block of rows times the concatenated weight, at row `p` and column `c`: the sum over the 1024 contracted positions. -/
theorem mmCat_apply (A : FVec Ideal S512x1024 .bf16) (B : FVec Ideal S1024x3072 .bf16) (p : Fin 512) (c : Fin 3072) :
    matmul dot_S512x1024_S1024x3072_S512x3072_1_0_0_1_n_n none A B (constant (F := Ideal) S512x3072 .f32 0x00000000#32) (ix2 p c)
      = ∑ k : Fin 1024, A (ix2 p k) * B (ix2 k c) := by
  refine (Ideal.matmul_constant_zero_apply dot_S512x1024_S1024x3072_S512x3072_1_0_0_1_n_n none A B (ix2 p c)).trans ?_
  rw [← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 p c) ((ValueIdx.contrEquiv1 dot_S512x1024_S1024x3072_S512x3072_1_0_0_1_n_n 1024 rfl rfl).symm k) = ix2 p k := funext fun a => Fin.ext (by
    match a with
    | ⟨0, _⟩ => exact mmCat_lhs0 _ _
    | ⟨1, _⟩ => exact (mmCat_lhs1 _ _).trans hk)
  have er : dot_S512x1024_S1024x3072_S512x3072_1_0_0_1_n_n.rhsIdx (ix2 p c) ((ValueIdx.contrEquiv1 dot_S512x1024_S1024x3072_S512x3072_1_0_0_1_n_n 1024 rfl rfl).symm k) = ix2 k c := funext fun a => Fin.ext (by
    match a with
    | ⟨0, _⟩ => exact (mmCat_rhs0 _ _).trans hk
    | ⟨1, _⟩ => exact mmCat_rhs1 _ _)
  rw [el, er]

theorem mmW2_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mmW2_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem mmW2_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem mmW2_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The hidden block times the second weight, at row `p` and column `c`: the sum over the 1024 contracted positions. -/
theorem mmW2_apply (A : FVec Ideal S512x1024 .bf16) (B : FVec Ideal S1024x1024 .bf16) (p : Fin 512) (c : Fin 1024) :
    matmul dot_S512x1024_S1024x1024_S512x1024_1_0_0_1_n_n none A B (constant (F := Ideal) S512x1024 .f32 0x00000000#32) (ix2 p c)
      = ∑ k : Fin 1024, A (ix2 p k) * B (ix2 k c) := by
  refine (Ideal.matmul_constant_zero_apply dot_S512x1024_S1024x1024_S512x1024_1_0_0_1_n_n none A B (ix2 p c)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p c) ((ValueIdx.contrEquiv1 dot_S512x1024_S1024x1024_S512x1024_1_0_0_1_n_n 1024 rfl rfl).symm k) = ix2 p k := funext fun a => Fin.ext (by
    match a with
    | ⟨0, _⟩ => exact mmW2_lhs0 _ _
    | ⟨1, _⟩ => exact (mmW2_lhs1 _ _).trans hk)
  have er : dot_S512x1024_S1024x1024_S512x1024_1_0_0_1_n_n.rhsIdx (ix2 p c) ((ValueIdx.contrEquiv1 dot_S512x1024_S1024x1024_S512x1024_1_0_0_1_n_n 1024 rfl rfl).symm k) = ix2 k c := funext fun a => Fin.ext (by
    match a with
    | ⟨0, _⟩ => exact (mmW2_rhs0 _ _).trans hk
    | ⟨1, _⟩ => exact mmW2_rhs1 _ _)
  rw [el, er]

/-! ## Two more lane-by-lane operations read at an index -/

theorem logistic_apply {s : Shape} {φ : FTy} (a : FVec Ideal s φ) (i : s.Idx) : logistic a i = Ideal.logistic (a i) := rfl

theorem rsqrt_apply {s : Shape} {φ : FTy} (a : FVec Ideal s φ) (i : s.Idx) : rsqrt a i = Ideal.rsqrt (a i) := rfl

/-! ## The three panels of the 3072 projected columns -/

/-- The slice at column offset 0 is the first panel. -/
theorem slice_panel0 (V : FVec Ideal S512x3072 .f32) (h : S512x3072.Slices ![0, 0] S512x1024) (p : Fin 512) (q : Fin 1024) :
    extractStridedSlice S512x1024 ![0, 0] V h (ix2 p q) = V (ix2 p (Cert.Grn.panel 0 q)) :=
  slice2_axis1_apply 0 V h p q _ rfl

/-- The slice at column offset 1024 is the second panel. -/
theorem slice_panel1 (V : FVec Ideal S512x3072 .f32) (h : S512x3072.Slices ![0, 1024] S512x1024) (p : Fin 512) (q : Fin 1024) :
    extractStridedSlice S512x1024 ![0, 1024] V h (ix2 p q) = V (ix2 p (Cert.Grn.panel 1 q)) :=
  slice2_axis1_apply 1024 V h p q _ rfl

/-- The slice at column offset 2048 is the third panel. -/
theorem slice_panel2 (V : FVec Ideal S512x3072 .f32) (h : S512x3072.Slices ![0, 2048] S512x1024) (p : Fin 512) (q : Fin 1024) :
    extractStridedSlice S512x1024 ![0, 2048] V h (ix2 p q) = V (ix2 p (Cert.Grn.panel 2 q)) :=
  slice2_axis1_apply 2048 V h p q _ rfl

/-! ## The projections of the raw rows -/

/-- The block of rows times the concatenated weight plus the bias row, at row `p` and column `c`. -/
theorem proj_apply (x0 : FVec Ideal S512x1024 .f32) (x1 : FVec Ideal S1024x3072 .bf16) (x2 : FVec Ideal S3072 .f32)
    (h0 : S512x1024.ShapeCasts S512x1024) (hb : FTy.bits .bf16 < FTy.bits .f32) (h1 : S1024x3072.ShapeCasts S1024x3072)
    (h2 : S3072.ShapeCasts S3072) (h3 : S3072.ShapeCasts S1x3072) (h4 : S1x3072.Broadcasts S512x3072)
    (p : Fin 512) (c : Fin 3072) :
    addf (matmul dot_S512x1024_S1024x3072_S512x3072_1_0_0_1_n_n none (truncf .bf16 (shapeCast S512x1024 x0 h0) hb) (shapeCast S1024x3072 x1 h1)
          (constant (F := Ideal) S512x3072 .f32 0x00000000#32))
        (broadcastTo S512x3072 (shapeCast S1x3072 (shapeCast S3072 x2 h2) h3) h4) (ix2 p c)
      = (∑ k : Fin 1024, x0 (ix2 p k) * x1 (ix2 k c)) + x2 (ix1 c) := by
  rw [shapeCast_self, shapeCast_self, shapeCast_self]
  rw [addf_apply, mmCat_apply, broadcastTo_1b_ab_apply, shapeCast_a_1a_apply]
  rfl

/-! ## The row before normalisation -/

/-- The value branch gated plus the skip branch, from the 3072 projected columns `V` of the block: at row `p` and
    feature `q`. -/
theorem mixed_of_proj (V : FVec Ideal S512x3072 .f32) (v17 : FVec Ideal S1024x1024 .bf16) (v19 : FVec Ideal S1024 .f32)
    (hs0 : S512x3072.Slices ![0, 0] S512x1024) (hs1 : S512x3072.Slices ![0, 1024] S512x1024)
    (hs2 : S512x3072.Slices ![0, 2048] S512x1024) (hb : FTy.bits .bf16 < FTy.bits .f32)
    (h1 : S1024x1024.ShapeCasts S1024x1024) (h2 : S1024.ShapeCasts S1x1024) (h3 : S1x1024.Broadcasts S512x1024)
    (p : Fin 512) (q : Fin 1024) :
    addf (mulf (addf (matmul dot_S512x1024_S1024x1024_S512x1024_1_0_0_1_n_n none
              (truncf .bf16 (maximumf (extractStridedSlice S512x1024 ![0, 0] V hs0)
                (broadcast S512x1024 (FloatOps.ofBits (F := Ideal) .f32 0x00000000#32))) hb)
              (shapeCast S1024x1024 v17 h1) (constant (F := Ideal) S512x1024 .f32 0x00000000#32))
            (broadcastTo S512x1024 (shapeCast S1x1024 v19 h2) h3))
          (logistic (extractStridedSlice S512x1024 ![0, 1024] V hs1)))
        (extractStridedSlice S512x1024 ![0, 2048] V hs2) (ix2 p q)
      = ((∑ k : Fin 1024, max (V (ix2 p (Cert.Grn.panel 0 k))) (Ideal.ofBits .f32 0x00000000#32) * v17 (ix2 k q)) + v19 (ix1 q))
          * Ideal.logistic (V (ix2 p (Cert.Grn.panel 1 q))) + V (ix2 p (Cert.Grn.panel 2 q)) := by
  rw [shapeCast_self]
  rw [addf_apply, mulf_apply, addf_apply, logistic_apply, mmW2_apply, broadcastTo_1b_ab_apply, shapeCast_a_1a_apply,
    slice_panel1, slice_panel2]
  refine congrArg (fun s => (s + v19 (ix1 q)) * Ideal.logistic (V (ix2 p (Cert.Grn.panel 1 q))) + V (ix2 p (Cert.Grn.panel 2 q))) ?_
  refine Finset.sum_congr rfl fun k _ => ?_
  rw [truncf_apply, maximumf_apply, slice_panel0, broadcast_apply]
  rfl

/-- The body's row before normalisation is the specification's, of row `p` of the block and the panels of the
    concatenated weight and bias. -/
theorem pay2_apply (v0 : Vec Ideal S512x1024 .f32) (v3 : Vec Ideal S1024x3072 .bf16) (v5 : Vec Ideal S3072 .f32)
    (v17 : Vec Ideal S1024x1024 .bf16) (v19 : Vec Ideal S1024 .f32) (p : Fin 512) (q : Fin 1024) :
    k0_pay2 (F := Ideal) v0 v3 v5 v17 v19 (ix2 p q)
      = Cert.Grn.mixed (fun k => v0 (ix2 p k))
          (fun k u => v3 (ix2 k (Cert.Grn.panel 0 u))) (fun k u => v3 (ix2 k (Cert.Grn.panel 1 u))) (fun k u => v3 (ix2 k (Cert.Grn.panel 2 u)))
          (fun k u => v17 (ix2 k u))
          (fun u => v5 (ix1 (Cert.Grn.panel 0 u))) (fun u => v5 (ix1 (Cert.Grn.panel 1 u))) (fun u => v5 (ix1 (Cert.Grn.panel 2 u)))
          (fun u => v19 (ix1 u)) q := by
  unfold k0_pay2
  refine (mixed_of_proj _ v17 v19 _ _ _ _ _ _ _ p q).trans ?_
  simp only [proj_apply]
  rfl

/-! ## The normalisation: the row's mean, the centred row, the mean of its squares -/

/-- The index a lane sum over the features inserts: feature `k` of row `p`. -/
theorem lift_row (h : S512x1024.Reduces [1] S512) (p : Fin 512) (k : Fin 1024) : h.lift (ix1 p) k = ix2 p k :=
  funext fun a => Fin.ext (by
    match a with
    | ⟨0, _⟩ => rfl
    | ⟨1, _⟩ => rfl)

/-- A lane sum over the 1024 features, kept as a column and divided by the float 1024, is the mean of the row. -/
theorem rowMean_apply (Y : FVec Ideal S512x1024 .f32) (h : S512x1024.Reduces [1] S512) (hφ : FKind.Formats .f32)
    (hacc : (0x00000000#32 : BitVec 32) = FKind.add.neutral .f32 hφ) (hc : S512.ShapeCasts S512x1) (p : Fin 512) (u : Fin 1) :
    divf (shapeCast S512x1 (multiReduction (F := Ideal) .add [1] S512 Y 0x00000000#32 h hφ hacc) hc)
        (broadcast S512x1 (FloatOps.ofBits (F := Ideal) .f32 0x44800000#32)) (ix2 p u)
      = Cert.Grn.mean (fun k => Y (ix2 p k)) := by
  rw [divf_apply, shapeCast_a_a1_apply, broadcast_apply]
  unfold Cert.Grn.mean
  refine congrArg (fun s => Ideal.div s (Ideal.ofBits .f32 0x44800000#32)) ?_
  refine (Ideal.multiReduction_add_single Y _ h hφ hacc (ix1 p)).trans ?_
  exact Finset.sum_congr rfl fun k _ => congrArg Y (lift_row h p k)

/-- The specification's row before normalisation, for row `p` of the block. -/
abbrev specRow (v0 : Vec Ideal S512x1024 .f32) (v3 : Vec Ideal S1024x3072 .bf16) (v5 : Vec Ideal S3072 .f32)
    (v17 : Vec Ideal S1024x1024 .bf16) (v19 : Vec Ideal S1024 .f32) (p : Fin 512) : Fin 1024 → EReal :=
  Cert.Grn.mixed (fun k => v0 (ix2 p k))
          (fun k u => v3 (ix2 k (Cert.Grn.panel 0 u))) (fun k u => v3 (ix2 k (Cert.Grn.panel 1 u))) (fun k u => v3 (ix2 k (Cert.Grn.panel 2 u)))
          (fun k u => v17 (ix2 k u))
          (fun u => v5 (ix1 (Cert.Grn.panel 0 u))) (fun u => v5 (ix1 (Cert.Grn.panel 1 u))) (fun u => v5 (ix1 (Cert.Grn.panel 2 u)))
          (fun u => v19 (ix1 u))

theorem pay2_row (v0 : Vec Ideal S512x1024 .f32) (v3 : Vec Ideal S1024x3072 .bf16) (v5 : Vec Ideal S3072 .f32)
    (v17 : Vec Ideal S1024x1024 .bf16) (v19 : Vec Ideal S1024 .f32) (p : Fin 512) :
    (fun k : Fin 1024 => k0_pay2 (F := Ideal) v0 v3 v5 v17 v19 (ix2 p k)) = specRow v0 v3 v5 v17 v19 p :=
  funext fun k => pay2_apply v0 v3 v5 v17 v19 p k

/-- The body's column of row means. -/
theorem pay3_apply (v0 : Vec Ideal S512x1024 .f32) (v3 : Vec Ideal S1024x3072 .bf16) (v5 : Vec Ideal S3072 .f32)
    (v17 : Vec Ideal S1024x1024 .bf16) (v19 : Vec Ideal S1024 .f32) (p : Fin 512) (u : Fin 1) :
    k0_pay3 (F := Ideal) v0 v3 v5 v17 v19 (ix2 p u) = Cert.Grn.mean (specRow v0 v3 v5 v17 v19 p) := by
  unfold k0_pay3
  refine (rowMean_apply _ _ _ _ _ p u).trans ?_
  rw [pay2_row]

/-- The body's centred rows. -/
theorem pay5_apply (v0 : Vec Ideal S512x1024 .f32) (v3 : Vec Ideal S1024x3072 .bf16) (v5 : Vec Ideal S3072 .f32)
    (v17 : Vec Ideal S1024x1024 .bf16) (v19 : Vec Ideal S1024 .f32) (p : Fin 512) (q : Fin 1024) :
    k0_pay5 (F := Ideal) v0 v3 v5 v17 v19 (ix2 p q)
      = specRow v0 v3 v5 v17 v19 p q - Cert.Grn.mean (specRow v0 v3 v5 v17 v19 p) := by
  unfold k0_pay5
  rw [subf_apply, broadcastTo_a1_ab_apply, pay2_apply, pay3_apply]

/-- The body's column of row variances: the mean of the squares of the centred row. -/
theorem pay4_apply (v0 : Vec Ideal S512x1024 .f32) (v3 : Vec Ideal S1024x3072 .bf16) (v5 : Vec Ideal S3072 .f32)
    (v17 : Vec Ideal S1024x1024 .bf16) (v19 : Vec Ideal S1024 .f32) (p : Fin 512) (u : Fin 1) :
    k0_pay4 (F := Ideal) v0 v3 v5 v17 v19 (ix2 p u)
      = Cert.Grn.mean (fun k => (specRow v0 v3 v5 v17 v19 p k - Cert.Grn.mean (specRow v0 v3 v5 v17 v19 p))
          * (specRow v0 v3 v5 v17 v19 p k - Cert.Grn.mean (specRow v0 v3 v5 v17 v19 p))) := by
  unfold k0_pay4
  refine (rowMean_apply _ _ _ _ _ p u).trans ?_
  refine congrArg Cert.Grn.mean (funext fun k => ?_)
  beta_reduce
  rw [mulf_apply, subf_apply, broadcastTo_a1_ab_apply, pay2_apply, pay3_apply]

/-- The last layer: the centred row scaled by the reciprocal root of the variance plus ε, by γ, and shifted by β. -/
theorem pay1_apply (v27 v28 : Vec Ideal S1024 .f32) (v39 : FVec Ideal S512x1 .f32) (v41 : FVec Ideal S512x1024 .f32)
    (p : Fin 512) (q : Fin 1024) :
    k0_pay1 (F := Ideal) v27 v28 v39 v41 (ix2 p q)
      = v41 (ix2 p q) * Ideal.rsqrt (v39 (ix2 p (0 : Fin 1)) + Ideal.ofBits .f32 0x3A83126F#32) * v27 (ix1 q) + v28 (ix1 q) := by
  unfold k0_pay1
  rw [addf_apply, mulf_apply, mulf_apply, broadcastTo_a1_ab_apply, rsqrt_apply, addf_apply, broadcast_apply,
    broadcastTo_1b_ab_apply, broadcastTo_1b_ab_apply, shapeCast_a_1a_apply, shapeCast_a_1a_apply]
  rfl

/-! ## The stored block -/

theorem zero_off2 : (![0, 0] : Fin 2 → Nat) = fun _ => 0 := funext fun a => by fin_cases a <;> rfl

theorem zero_off1 : (![0] : Fin 1 → Nat) = fun _ => 0 := funext fun a => by fin_cases a; rfl

/-- The block the body stores, at row `p` and feature `q`, is the specification's output row of row `p` of the
    loaded block of rows. -/
theorem blockOut_apply (x0 : Vec Ideal S512x1024 .f32) (x1 : Vec Ideal S1024x3072 .bf16) (x2 : Vec Ideal S3072 .f32) (x3 : Vec Ideal S1024x1024 .bf16)
    (x4 x5 x6 : Vec Ideal S1024 .f32) (p : Fin 512) (q : Fin 1024) :
    Cert.KernelIdeal.Grn.blockOut (F := Ideal) x0 x1 x2 x3 x4 x5 x6 (ValueIdx.ix2 p q)
      = Cert.Grn.rowOut (fun k => x0 (ValueIdx.ix2 p k))
          (fun k u => x1 (ValueIdx.ix2 k (Cert.Grn.panel 0 u))) (fun k u => x1 (ValueIdx.ix2 k (Cert.Grn.panel 1 u))) (fun k u => x1 (ValueIdx.ix2 k (Cert.Grn.panel 2 u)))
          (fun k u => x3 (ValueIdx.ix2 k u))
          (fun u => x2 (ValueIdx.ix1 (Cert.Grn.panel 0 u))) (fun u => x2 (ValueIdx.ix1 (Cert.Grn.panel 1 u))) (fun u => x2 (ValueIdx.ix1 (Cert.Grn.panel 2 u)))
          (fun u => x4 (ValueIdx.ix1 u)) (fun u => x5 (ValueIdx.ix1 u)) (fun u => x6 (ValueIdx.ix1 u)) q := by
  unfold Cert.KernelIdeal.Grn.blockOut
  rw [View.canon_unit_zero zero_off2]
  simp only [View.ld_unit_zero (S := S512x1024) zero_off2, View.ld_unit_zero (S := S1024x3072) zero_off2,
    View.ld_unit_zero (S := S3072) zero_off1, View.ld_unit_zero (S := S1024x1024) zero_off2,
    View.ld_unit_zero (S := S1024) zero_off1]
  rw [pay1_apply, pay5_apply, pay4_apply]
  rfl

end Cert.KernelIdeal.GrnValue

end
-- ==== Proof.GrnArray.lean ====
/-
  From blocks to the array.  At grid point t the row windows (the flattened input and the result) hold rows
  512 t … 512 t + 511 of their arrays, and every other window holds its whole array; so what point t writes back is
  block t of ONE function of the operand arrays — the network applied to every row — and since the 32 blocks tile the
  16384 rows (row r lies in the block of point r / 512), the result array after the run is that function.
-/
import proofs.«157899_j67027259621479_2_alg».proof.Proof.GrnFrameI
import proofs.«157899_j67027259621479_2_alg».proof.Proof.GrnBlock
import proofs.«157899_j67027259621479_2_alg».proof.Proof.GrnSpec
import Idealize.ShloMosaic.Lib.Pipeline.Value
import Idealize.ShloMosaic.Lib.ValueIdx

set_option maxRecDepth 16384

noncomputable section

namespace Cert.KernelIdeal.GrnArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Grn Cert.Grn

variable (m : (ℓ : Loc nD τ sig) → Buf (Elt Ideal) ℓ) (ρ : Dev nD → PrngReg)

/-- Row `r`, feature `q` of the network applied to the operand arrays as the region finds them. -/
def rowAt (c : Dev nD) (r : Fin 16384) (q : Fin 1024) : EReal :=
  rowOut (fun k => V m c main_v0 (ix2 r k))
    (fun k u => V m c main_v4 (ix2 k (panel 0 u))) (fun k u => V m c main_v4 (ix2 k (panel 1 u))) (fun k u => V m c main_v4 (ix2 k (panel 2 u)))
    (fun k u => V m c main_v6 (ix2 k u))
    (fun u => V m c main_v5 (ix1 (panel 0 u))) (fun u => V m c main_v5 (ix1 (panel 1 u))) (fun u => V m c main_v5 (ix1 (panel 2 u)))
    (fun u => V m c main_arg4 (ix1 u)) (fun u => V m c main_arg9 (ix1 u)) (fun u => V m c main_arg10 (ix1 u)) q

/-- The whole [16384, 1024] result: the network applied to every row. -/
def rowsOut (c : Dev nD) : S16384x1024.Idx → EReal := fun i => rowAt m c (i 0) (i 1)

/-- The index maps over the grid: the row windows move one block of 512 rows per point, every other window stays. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0 :=
  (by decide +kernel : ∀ t : Fin grid0.N, _)

theorem point_lt (t : Fin cfg0.N) : t.val < 32 := by
  have h := t.isLt; have hN : cfg0.N = 32 := N_0; omega

/-- Row `p` of the block of grid point `t` is row `512 t + p` of the array. -/
def rowOf (t : Fin cfg0.N) (p : Fin 512) : Fin 16384 := ⟨t.val * 512 + p.val, by have := point_lt t; omega⟩

theorem blk0_apply (c : Dev nD) (t : Fin cfg0.N) (p : Fin 512) (k : Fin 1024) :
    iblk m c 0 t (ix2 p k) = V m c main_v0 (ix2 (rowOf t p) k) := by
  obtain ⟨e0, e1, -⟩ := idx_facts t
  show V m c main_v0 (((cfg0.win 0).blk t).view.emb (ix2 p k)) = _
  refine congrArg (V m c main_v0) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

/-- A window whose block is its whole array reads, at any point, the array itself. -/
theorem blk1_apply (c : Dev nD) (t : Fin cfg0.N) (k : Fin 1024) (v : Fin 3072) :
    iblk m c 1 t (ix2 k v) = V m c main_v4 (ix2 k v) := by
  obtain ⟨-, -, -, -, e0, e1, -⟩ := idx_facts t
  show V m c main_v4 (((cfg0.win 1).blk t).view.emb (ix2 k v)) = _
  refine congrArg (V m c main_v4) (funext fun a => Fin.ext ?_)
  match a with
  | ⟨0, _⟩ => show win0_1.index t (0 : Fin 2) * 1024 + 1 * k.val = k.val; omega
  | ⟨1, _⟩ => show win0_1.index t (1 : Fin 2) * 3072 + 1 * v.val = v.val; omega

theorem blk2_apply (c : Dev nD) (t : Fin cfg0.N) (v : Fin 3072) :
    iblk m c 2 t (ix1 v) = V m c main_v5 (ix1 v) := by
  obtain ⟨-, -, -, -, -, -, e0, -⟩ := idx_facts t
  show V m c main_v5 (((cfg0.win 2).blk t).view.emb (ix1 v)) = _
  refine congrArg (V m c main_v5) (funext fun a => Fin.ext ?_)
  match a with
  | ⟨0, _⟩ => show win0_2.index t (0 : Fin 1) * 3072 + 1 * v.val = v.val; omega

theorem blk3_apply (c : Dev nD) (t : Fin cfg0.N) (k u : Fin 1024) :
    iblk m c 3 t (ix2 k u) = V m c main_v6 (ix2 k u) := by
  obtain ⟨-, -, -, -, -, -, -, e0, e1, -⟩ := idx_facts t
  show V m c main_v6 (((cfg0.win 3).blk t).view.emb (ix2 k u)) = _
  refine congrArg (V m c main_v6) (funext fun a => Fin.ext ?_)
  match a with
  | ⟨0, _⟩ => show win0_3.index t (0 : Fin 2) * 1024 + 1 * k.val = k.val; omega
  | ⟨1, _⟩ => show win0_3.index t (1 : Fin 2) * 1024 + 1 * u.val = u.val; omega

theorem blk4_apply (c : Dev nD) (t : Fin cfg0.N) (u : Fin 1024) :
    iblk m c 4 t (ix1 u) = V m c main_arg4 (ix1 u) := by
  obtain ⟨-, -, -, -, -, -, -, -, -, e0, -⟩ := idx_facts t
  show V m c main_arg4 (((cfg0.win 4).blk t).view.emb (ix1 u)) = _
  refine congrArg (V m c main_arg4) (funext fun a => Fin.ext ?_)
  match a with
  | ⟨0, _⟩ => show win0_4.index t (0 : Fin 1) * 1024 + 1 * u.val = u.val; omega

theorem blk5_apply (c : Dev nD) (t : Fin cfg0.N) (u : Fin 1024) :
    iblk m c 5 t (ix1 u) = V m c main_arg9 (ix1 u) := by
  obtain ⟨-, -, -, -, -, -, -, -, -, -, e0, -⟩ := idx_facts t
  show V m c main_arg9 (((cfg0.win 5).blk t).view.emb (ix1 u)) = _
  refine congrArg (V m c main_arg9) (funext fun a => Fin.ext ?_)
  match a with
  | ⟨0, _⟩ => show win0_5.index t (0 : Fin 1) * 1024 + 1 * u.val = u.val; omega

theorem blk6_apply (c : Dev nD) (t : Fin cfg0.N) (u : Fin 1024) :
    iblk m c 6 t (ix1 u) = V m c main_arg10 (ix1 u) := by
  obtain ⟨-, -, -, -, -, -, -, -, -, -, -, e0⟩ := idx_facts t
  show V m c main_arg10 (((cfg0.win 6).blk t).view.emb (ix1 u)) = _
  refine congrArg (V m c main_arg10) (funext fun a => Fin.ext ?_)
  match a with
  | ⟨0, _⟩ => show win0_6.index t (0 : Fin 1) * 1024 + 1 * u.val = u.val; omega

/-- What point `t` writes back is block `t` of the network applied to every row. -/
theorem flushed_eq (c : Dev nD) (t : Fin cfg0.N) :
    (dats m 0 c).flushed 7 t = ((cfg0.win 7).blk t).view.read (Elt Ideal) (rowsOut m c) := by
  show (cfg0.win 7).cut (grid0.coords t) ((dats m 0 c).after 7 t) = _
  rw [after_7]
  funext j
  obtain ⟨p, q, rfl⟩ : ∃ (p : Fin 512) (q : Fin 1024), j = ix2 p q := ⟨j 0, j 1, eq_ix2 j⟩
  obtain ⟨-, -, e0, e1, -⟩ := idx_facts t
  have hr : (((cfg0.win 7).blk t).view.emb (ix2 p q) 0 : Fin 16384) = rowOf t p :=
    Fin.ext (by show win0_7.index t (0 : Fin 2) * 512 + 1 * p.val = t.val * 512 + p.val; omega)
  have hq : (((cfg0.win 7).blk t).view.emb (ix2 p q) 1 : Fin 1024) = q :=
    Fin.ext (by show win0_7.index t (1 : Fin 2) * 1024 + 1 * q.val = q.val; omega)
  show blockOut (iblk m c 0 t) (iblk m c 1 t) (iblk m c 2 t) (iblk m c 3 t) (iblk m c 4 t) (iblk m c 5 t) (iblk m c 6 t) (ix2 p q)
    = rowAt m c (((cfg0.win 7).blk t).view.emb (ix2 p q) 0) (((cfg0.win 7).blk t).view.emb (ix2 p q) 1)
  rw [hr, hq]
  refine (GrnValue.blockOut_apply (iblk m c 0 t) (iblk m c 1 t) (iblk m c 2 t) (iblk m c 3 t) (iblk m c 4 t) (iblk m c 5 t) (iblk m c 6 t) p q).trans ?_
  unfold rowAt
  simp only [blk0_apply, blk1_apply, blk2_apply, blk3_apply, blk4_apply, blk5_apply, blk6_apply]
  try rfl

/-- An index of the result array is in point `t`'s block iff each coordinate is in the block's range on its axis. -/
theorem mem_blk (t : Fin cfg0.N) (i : S16384x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v7).slice (win0_7.rect t)).set ↔ _
  rw [View.set_slice_whole, Rect.mem_set_unit]
  exact Iff.rfl

/-- The 32 blocks of 512 rows tile the 16384 rows: row `r` is in the block of point `r / 512`. -/
theorem cover (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by omega⟩, rfl⟩
  obtain ⟨-, -, e0, e1, -⟩ := idx_facts t
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- The result array after the run: the network applied to every row. -/
theorem final (c : Dev nD) : (dats m 0 c).arrAt 7 cfg0.N = rowsOut m c :=
  (dats m 0 c).arrAt_eq_of_cover 7 (rowsOut m c) (fun t _ => flushed_eq m c t) cover

end Cert.KernelIdeal.GrnArray

end
-- ==== Proof.GrnOperands.lean ====
/-
  The operands of the gated residual network's region, read at an index: what the arrays the region's windows sit on
  hold when the region is entered, in terms of the program's argument arrays.  The rows array is the rank-3 input
  flattened to 16384 rows; the three projections that read the raw row are stored side by side as one 1024 × 3072
  array (and their biases as one row of 3072); a narrowing of the element format is the identity on extended reals.
-/
import proofs.«157899_j67027259621479_2_alg».proof.Proof.GrnEntryI
import proofs.«157899_j67027259621479_2_alg».proof.Proof.GrnSpec
import Idealize.ShloMosaic.Lib.StableHlo.Run
import Idealize.ShloMosaic.Lib.Pipeline.Value
import Idealize.ShloMosaic.Lib.ValueIdx

set_option maxRecDepth 16384

noncomputable section

namespace Cert.KernelIdeal.GrnOperands

open Cert.KernelIdeal Cert.KernelIdeal.Gen Cert.KernelIdeal.Grn Idealize.ShloMosaic Idealize.ShloMosaic.TcCoe
open Idealize.SL.Sem Idealize.ShloMosaic.StableHlo

variable (m : (ℓ : Loc nD τ sig) → Buf (Elt Ideal) ℓ)

/-- The second-layer weights as the region finds them: the argument array, its element format narrowed (the identity
    on extended reals). -/
theorem V_w2 (c : Dev nD) :
    V m c main_v6 = fun i => m ((c : Thread nD τ).loc main_arg3) i := by
  show StableHlo.after hostOps0 (fun b => m (c, b)) (Proc.devRef .tc main_v6) = _
  after_results
  rfl

/-- The second-layer weights at row `k`, column `u`. -/
theorem w2_apply (c : Dev nD) (k u : Fin 1024) :
    V m c main_v6 (ValueIdx.ix2 k u) = m ((c : Thread nD τ).loc main_arg3) (ValueIdx.ix2 k u) :=
  congrFun (V_w2 m c) _

/-- The rows array as the region finds it: the rank-3 input laid out as 16384 rows of 1024 features. -/
theorem V_rows (c : Dev nD) :
    V m c main_v0 = shapeCast S16384x1024 (m ((c : Thread nD τ).loc main_arg0)) shapeCasts_S4x4096x1024_S16384x1024 := by
  show StableHlo.after hostOps0 (fun b => m (c, b)) (Proc.devRef .tc main_v0) = _
  after_results
  rfl

/-- Row `r` of the flattened input is row `r % 4096` of batch `r / 4096`: the two indices have the same row-major
    position, `(r / 4096 · 4096 + r % 4096) · 1024 + k = r · 1024 + k`. -/
theorem rows_apply (c : Dev nD) (r : Fin 16384) (k : Fin 1024) :
    V m c main_v0 (ValueIdx.ix2 r k) = m ((c : Thread nD τ).loc main_arg0) (ValueIdx.ix3 (⟨r.val / 4096, by omega⟩ : Fin 4) (⟨r.val % 4096, Nat.mod_lt _ (by norm_num)⟩ : Fin 4096) k) := by
  rw [V_rows]
  refine shapeCast_apply (s := S4x4096x1024) (t := S16384x1024) _ _ _ _ ?_
  rw [Shape.rowMajor_val_two, Shape.rowMajor_val_three]
  show (r.val / 4096 * 4096 + r.val % 4096) * 1024 + k.val = r.val * 1024 + k.val
  omega

/-- An operation of three literal operands leaves at its result the function of the three operands' contents, each
    read at its own reference. -/
theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (G : Valuation τ' sig' Val) :
    (nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The side-by-side weights as the region finds them: the three 1024 × 1024 argument arrays (each with its element
    format narrowed, the identity on extended reals) joined along the columns. -/
theorem V_wcat (c : Dev nD) :
    (V m c main_v4 : S1024x3072.Idx → EReal) = concatenate S1024x3072 1
      [⟨S1024x1024, fun i => m ((c : Thread nD τ).loc main_arg1) i⟩,
       ⟨S1024x1024, fun i => m ((c : Thread nD τ).loc main_arg5) i⟩,
       ⟨S1024x1024, fun i => m ((c : Thread nD τ).loc main_arg7) i⟩]
      concatenates_S1024x1024_S1024x1024_S1024x1024_S1024x3072_d1 := by
  show StableHlo.after hostOps0 (fun b => m (c, b)) (Proc.devRef .tc main_v4) = _
  simp only [after_cons, after_nil]
  rw [unary_result_ne]; rotate_left; decide
  rw [nary_result_ne]; rotate_left; decide
  rw [nary3_result]
  repeat (first
    | rw [unary_result] | rw [reshape_result]
    | (rw [unary_result_ne]; rotate_left; decide)
    | (rw [reshape_result_ne]; rotate_left; decide))
  rfl

/-- The side-by-side biases as the region finds them: the three bias rows joined end to end. -/
theorem V_bcat (c : Dev nD) :
    (V m c main_v5 : S3072.Idx → EReal) = concatenate S3072 0
      [⟨S1024, fun i => m ((c : Thread nD τ).loc main_arg2) i⟩,
       ⟨S1024, fun i => m ((c : Thread nD τ).loc main_arg6) i⟩,
       ⟨S1024, fun i => m ((c : Thread nD τ).loc main_arg8) i⟩]
      concatenates_S1024_S1024_S1024_S3072_d0 := by
  show StableHlo.after hostOps0 (fun b => m (c, b)) (Proc.devRef .tc main_v5) = _
  simp only [after_cons, after_nil]
  rw [unary_result_ne]; rotate_left; decide
  rw [nary3_result]
  repeat (first
    | (rw [nary_result_ne]; rotate_left; decide)
    | (rw [unary_result_ne]; rotate_left; decide)
    | (rw [reshape_result_ne]; rotate_left; decide))
  rfl

/-- Column `u` of the first panel of the side-by-side weights is column `u` of the first joined array: the panel starts
    after 0 arrays of 1024 columns. -/
theorem wcat_apply0 (c : Dev nD) (k u : Fin 1024) :
    V m c main_v4 (ValueIdx.ix2 k (Cert.Grn.panel 0 u)) = m ((c : Thread nD τ).loc main_arg1) (ValueIdx.ix2 k u) := by
  refine (congrFun (V_wcat m c) _).trans ?_
  refine concatenate_apply_piece (t := S1024x3072) 1 _ _ _ 0 (by show 0 < 3; omega) S1024x1024 _ rfl rfl 0 rfl
    (ValueIdx.ix2 k u) ?_ ?_
  · intro b hb
    match b with
    | ⟨0, _⟩ => rfl
    | ⟨1, _⟩ => exact absurd rfl hb
  · show 0 + u.val = (Cert.Grn.panel 0 u).val
    rw [Cert.Grn.panel_val]
    show 0 + u.val = 1024 * 0 + u.val
    omega

/-- Column `u` of the second panel of the side-by-side weights is column `u` of the second joined array: the panel starts
    after 1 arrays of 1024 columns. -/
theorem wcat_apply1 (c : Dev nD) (k u : Fin 1024) :
    V m c main_v4 (ValueIdx.ix2 k (Cert.Grn.panel 1 u)) = m ((c : Thread nD τ).loc main_arg5) (ValueIdx.ix2 k u) := by
  refine (congrFun (V_wcat m c) _).trans ?_
  refine concatenate_apply_piece (t := S1024x3072) 1 _ _ _ 1 (by show 1 < 3; omega) S1024x1024 _ rfl rfl 1024 rfl
    (ValueIdx.ix2 k u) ?_ ?_
  · intro b hb
    match b with
    | ⟨0, _⟩ => rfl
    | ⟨1, _⟩ => exact absurd rfl hb
  · show 1024 + u.val = (Cert.Grn.panel 1 u).val
    rw [Cert.Grn.panel_val]
    show 1024 + u.val = 1024 * 1 + u.val
    omega

/-- Column `u` of the third panel of the side-by-side weights is column `u` of the third joined array: the panel starts
    after 2 arrays of 1024 columns. -/
theorem wcat_apply2 (c : Dev nD) (k u : Fin 1024) :
    V m c main_v4 (ValueIdx.ix2 k (Cert.Grn.panel 2 u)) = m ((c : Thread nD τ).loc main_arg7) (ValueIdx.ix2 k u) := by
  refine (congrFun (V_wcat m c) _).trans ?_
  refine concatenate_apply_piece (t := S1024x3072) 1 _ _ _ 2 (by show 2 < 3; omega) S1024x1024 _ rfl rfl 2048 rfl
    (ValueIdx.ix2 k u) ?_ ?_
  · intro b hb
    match b with
    | ⟨0, _⟩ => rfl
    | ⟨1, _⟩ => exact absurd rfl hb
  · show 2048 + u.val = (Cert.Grn.panel 2 u).val
    rw [Cert.Grn.panel_val]
    show 2048 + u.val = 1024 * 2 + u.val
    omega

/-- Entry `u` of the first panel of the side-by-side biases is entry `u` of the first joined row. -/
theorem bcat_apply0 (c : Dev nD) (u : Fin 1024) :
    V m c main_v5 (ValueIdx.ix1 (Cert.Grn.panel 0 u)) = m ((c : Thread nD τ).loc main_arg2) (ValueIdx.ix1 u) := by
  refine (congrFun (V_bcat m c) _).trans ?_
  refine concatenate_apply_piece (t := S3072) 0 _ _ _ 0 (by show 0 < 3; omega) S1024 _ rfl rfl 0 rfl
    (ValueIdx.ix1 u) ?_ ?_
  · intro b hb
    match b with
    | ⟨0, _⟩ => exact absurd rfl hb
  · show 0 + u.val = (Cert.Grn.panel 0 u).val
    rw [Cert.Grn.panel_val]
    show 0 + u.val = 1024 * 0 + u.val
    omega

/-- Entry `u` of the second panel of the side-by-side biases is entry `u` of the second joined row. -/
theorem bcat_apply1 (c : Dev nD) (u : Fin 1024) :
    V m c main_v5 (ValueIdx.ix1 (Cert.Grn.panel 1 u)) = m ((c : Thread nD τ).loc main_arg6) (ValueIdx.ix1 u) := by
  refine (congrFun (V_bcat m c) _).trans ?_
  refine concatenate_apply_piece (t := S3072) 0 _ _ _ 1 (by show 1 < 3; omega) S1024 _ rfl rfl 1024 rfl
    (ValueIdx.ix1 u) ?_ ?_
  · intro b hb
    match b with
    | ⟨0, _⟩ => exact absurd rfl hb
  · show 1024 + u.val = (Cert.Grn.panel 1 u).val
    rw [Cert.Grn.panel_val]
    show 1024 + u.val = 1024 * 1 + u.val
    omega

/-- Entry `u` of the third panel of the side-by-side biases is entry `u` of the third joined row. -/
theorem bcat_apply2 (c : Dev nD) (u : Fin 1024) :
    V m c main_v5 (ValueIdx.ix1 (Cert.Grn.panel 2 u)) = m ((c : Thread nD τ).loc main_arg8) (ValueIdx.ix1 u) := by
  refine (congrFun (V_bcat m c) _).trans ?_
  refine concatenate_apply_piece (t := S3072) 0 _ _ _ 2 (by show 2 < 3; omega) S1024 _ rfl rfl 2048 rfl
    (ValueIdx.ix1 u) ?_ ?_
  · intro b hb
    match b with
    | ⟨0, _⟩ => exact absurd rfl hb
  · show 2048 + u.val = (Cert.Grn.panel 2 u).val
    rw [Cert.Grn.panel_val]
    show 2048 + u.val = 1024 * 2 + u.val
    omega

end Cert.KernelIdeal.GrnOperands

end
-- ==== Proof.GrnNetwork.lean ====
/-
  The whole network as one function of its eleven argument arrays: entry (b, s, j) of the [4, 4096, 1024] result is
  feature j of the output row computed from input row (b, s).  Both programs are compared with this one function of
  plainly typed arrays, so that neither side's statement mentions the other program.
-/
import proofs.«157899_j67027259621479_2_alg».proof.Proof.GrnSpec
import Idealize.ShloMosaic.Lib.ValueIdx

noncomputable section

namespace Cert.Grn

open Idealize.ShloMosaic Idealize.ShloMosaic.ValueIdx

/-- Equal rows and parameters give equal output rows. -/
theorem rowOut_congr {x x' : Fin 1024 → EReal} {w1 w1' wg wg' ws ws' w2 w2' : Fin 1024 → Fin 1024 → EReal}
    {b1 b1' bg bg' bs bs' b2 b2' gamma gamma' beta beta' : Fin 1024 → EReal}
    (hx : x = x') (h1 : w1 = w1') (hg : wg = wg') (hs : ws = ws') (h2 : w2 = w2')
    (hb1 : b1 = b1') (hbg : bg = bg') (hbs : bs = bs') (hb2 : b2 = b2') (hga : gamma = gamma') (hbe : beta = beta') (j : Fin 1024) :
    rowOut x w1 wg ws w2 b1 bg bs b2 gamma beta j = rowOut x' w1' wg' ws' w2' b1' bg' bs' b2' gamma' beta' j := by
  subst hx h1 hg hs h2 hb1 hbg hbs hb2 hga hbe; rfl

abbrev SIn : Shape := ⟨3, ![4, 4096, 1024]⟩
abbrev SMat : Shape := ⟨2, ![1024, 1024]⟩
abbrev SVec : Shape := ⟨1, ![1024]⟩

/-- The network's result from the arguments in the programs' order: inputs, w1, b1, w2, b2, wg, bg, ws, bs, gamma, beta. -/
def network (a0 : SIn.Idx → EReal) (a1 : SMat.Idx → EReal) (a2 : SVec.Idx → EReal) (a3 : SMat.Idx → EReal) (a4 : SVec.Idx → EReal)
    (a5 : SMat.Idx → EReal) (a6 : SVec.Idx → EReal) (a7 : SMat.Idx → EReal) (a8 a9 a10 : SVec.Idx → EReal) : SIn.Idx → EReal :=
  fun i => rowOut (fun k => a0 (ix3 (i 0 : Fin 4) (i 1 : Fin 4096) k))
    (fun k u => a1 (ix2 k u)) (fun k u => a5 (ix2 k u)) (fun k u => a7 (ix2 k u)) (fun k u => a3 (ix2 k u))
    (fun u => a2 (ix1 u)) (fun u => a6 (ix1 u)) (fun u => a8 (ix1 u)) (fun u => a4 (ix1 u)) (fun u => a9 (ix1 u)) (fun u => a10 (ix1 u))
    (i 2 : Fin 1024)

theorem network_apply (a0 : SIn.Idx → EReal) (a1 : SMat.Idx → EReal) (a2 : SVec.Idx → EReal) (a3 : SMat.Idx → EReal) (a4 : SVec.Idx → EReal)
    (a5 : SMat.Idx → EReal) (a6 : SVec.Idx → EReal) (a7 : SMat.Idx → EReal) (a8 a9 a10 : SVec.Idx → EReal) (b : Fin 4) (s : Fin 4096) (j : Fin 1024) :
    network a0 a1 a2 a3 a4 a5 a6 a7 a8 a9 a10 (ix3 b s j)
      = rowOut (fun k => a0 (ix3 b s k))
          (fun k u => a1 (ix2 k u)) (fun k u => a5 (ix2 k u)) (fun k u => a7 (ix2 k u)) (fun k u => a3 (ix2 k u))
          (fun u => a2 (ix1 u)) (fun u => a6 (ix1 u)) (fun u => a8 (ix1 u)) (fun u => a4 (ix1 u)) (fun u => a9 (ix1 u)) (fun u => a10 (ix1 u)) j := rfl

/-- Equal arguments give equal results. -/
theorem network_congr {a0 b0 : SIn.Idx → EReal} {a1 b1 a3 b3 a5 b5 a7 b7 : SMat.Idx → EReal}
    {a2 b2 a4 b4 a6 b6 a8 b8 a9 b9 a10 b10 : SVec.Idx → EReal}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) (h10 : a10 = b10) :
    network a0 a1 a2 a3 a4 a5 a6 a7 a8 a9 a10 = network b0 b1 b2 b3 b4 b5 b6 b7 b8 b9 b10 := by
  subst h0 h1 h2 h3 h4 h5 h6 h7 h8 h9 h10; rfl

end Cert.Grn

end
-- ==== Proof.GrnResult.lean ====
/-
  The idealized kernel program's result.  The one host line after the region reshapes the [16384, 1024] result array
  to [4, 4096, 1024]: entry (b, s, j) is entry (4096 b + s, j), whose row is input row (b, s) of the flattened input; and
  the operand arrays the region found are the argument arrays re-laid (the flattened input, the three projections'
  weights and biases side by side).  So the program ends with the network of its arguments, which are unchanged.
-/
import proofs.«157899_j67027259621479_2_alg».proof.Proof.GrnArray
import proofs.«157899_j67027259621479_2_alg».proof.Proof.GrnOperands
import proofs.«157899_j67027259621479_2_alg».proof.Proof.GrnNetwork
import Idealize.ShloMosaic.Lib.StableHlo.Run

set_option maxRecDepth 16384

noncomputable section

namespace Cert.KernelIdeal.GrnResult

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Grn Cert.Grn Cert.KernelIdeal.GrnArray

variable (m : (ℓ : Loc nD τ sig) → Buf (Elt Ideal) ℓ) (ρ : Dev nD → PrngReg)

/-! ## The reshape after the region, and the result as the network of the arguments -/

/-- The program's result: the reshape of the result array to [4, 4096, 1024]. -/
theorem tail_eq (c : Dev nD) : Pipeline.afterTail₀ cfgs (dats m) 0 (V0 m) [hostOps1] c main_v8
    = shapeCast S4x4096x1024 (rowsOut m c) shapeCasts_S16384x1024_S4x4096x1024 := by
  unfold Pipeline.afterTail₀
  show StableHlo.after hostOps1 _ (Proc.devRef .tc main_v8) = _
  open Idealize.ShloMosaic.StableHlo in after_results
  have hw : Pipeline.withArrays (cfgs 0).spec c (V0 m c) (fun w => (dats m 0 c).arrAt w (cfgs 0).N) (Proc.devRef .tc main_v7) = rowsOut m c :=
    (Pipeline.withArrays_arr spec0 launch0.win.arr_inj c _ _ 7).trans (final m c)
  rw [hw]
  rfl

/-- Row `4096 b + s` of the flattened input is input row (b, s). -/
theorem flat_div (b : Fin 4) (s : Fin 4096) : (⟨(b.val * 4096 + s.val) / 4096, by omega⟩ : Fin 4) = b := Fin.ext (by show (b.val * 4096 + s.val) / 4096 = b.val; omega)
theorem flat_mod (b : Fin 4) (s : Fin 4096) : (⟨(b.val * 4096 + s.val) % 4096, Nat.mod_lt _ (by norm_num)⟩ : Fin 4096) = s := Fin.ext (by show (b.val * 4096 + s.val) % 4096 = s.val; omega)

/-- The program's result is the network of the argument arrays as launched. -/
theorem result_eq (c : Dev nD) : Pipeline.afterTail₀ cfgs (dats m) 0 (V0 m) [hostOps1] c main_v8
    = Cert.Grn.network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  rw [tail_eq]
  funext i
  obtain ⟨b, s, j, rfl⟩ : ∃ (b : Fin 4) (s : Fin 4096) (j : Fin 1024), i = ix3 b s j := ⟨i 0, i 1, i 2, eq_ix3 i⟩
  rw [Cert.Grn.network_apply]
  refine (shapeCast_apply (rowsOut m c) shapeCasts_S16384x1024_S4x4096x1024 (ix3 b s j)
    (ix2 (⟨b.val * 4096 + s.val, by omega⟩ : Fin 16384) j) ?_).trans ?_
  · rw [Shape.rowMajor_val_two, Shape.rowMajor_val_three]
    show (b.val * 4096 + s.val) * 1024 + j.val = (b.val * 4096 + s.val) * 1024 + j.val
    rfl
  · show rowAt m c (⟨b.val * 4096 + s.val, by omega⟩ : Fin 16384) j = _
    unfold rowAt
    exact Cert.Grn.rowOut_congr
      (funext fun k => (GrnOperands.rows_apply m c _ k).trans (by rw [flat_div, flat_mod]))
      (funext fun k => funext fun u => GrnOperands.wcat_apply0 m c k u)
      (funext fun k => funext fun u => GrnOperands.wcat_apply1 m c k u)
      (funext fun k => funext fun u => GrnOperands.wcat_apply2 m c k u)
      (funext fun k => funext fun u => GrnOperands.w2_apply m c k u)
      (funext fun u => GrnOperands.bcat_apply0 m c u)
      (funext fun u => GrnOperands.bcat_apply1 m c u)
      (funext fun u => GrnOperands.bcat_apply2 m c u)
      (funext fun u => congrFun (V_main_arg4 m c) (ix1 u))
      (funext fun u => congrFun (V_main_arg9 m c) (ix1 u))
      (funext fun u => congrFun (V_main_arg10 m c) (ix1 u)) j

/-- The idealized kernel program runs to the end with its result the network of its arguments, which end unchanged. -/
theorem kernel_run : θ_run defs (onTc (τ := τ) (main (F := Ideal))) ⟨m, fun _ => 0, ρ⟩ (fun r => ∀ c : Dev nD,
      r.2.mem ((c.tc : Thread nD τ).loc main_v8)
        = Cert.Grn.network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).2 main_v8 (Pipeline.mem_restRefs_of main_v8 (by decide) (by decide))).trans (result_eq m c),
      kept_of m (dats m) (A_eq m) r h c⟩) (run_main m ρ)

end Cert.KernelIdeal.GrnResult

end
-- ==== Proof.RefSide.lean ====
/-
  The reference's side: its result, read at an index, is the shared per-row specification.

  The reference is a straight line of array operations. Read at an index (b, s, j) each of them touches one element of
  each operand, except the four matrix products (a sum over the 1024 contracted positions) and the two row sums. So
  the proof walks the line once: each projection `x · W + bias` is `Cert.Grn.affine` of row (b, s) of the input, the
  hidden projection is clamped at zero, the gate is the logistic function spelt `1 / (1 + exp (−z))`, the row before
  normalisation is `Cert.Grn.mixed`, its mean and the mean of its squared deviations are `Cert.Grn.mean`, and the
  result is `Cert.Grn.normalised`.
-/
import proofs.«157899_j67027259621479_2_alg».proof.Proof.Gen.ReferenceIdeal.Read
import proofs.«157899_j67027259621479_2_alg».proof.Proof.GrnSpec
import Idealize.ShloMosaic.Lib.ValueIdx
import Idealize.ShloMosaic.Lib.IdealHost
import Idealize.ShloMosaic.PureOps.Ideal
import Idealize.ShloMosaic.PureOps.Ideal.Laws

noncomputable section

namespace Cert.ReferenceIdeal.RefValue

open Cert.ReferenceIdeal Cert.ReferenceIdeal.Gen Idealize.ShloMosaic
open Cert.ReferenceIdeal.Read

section Stages

/-! ## The composed index maps at an index given by its coordinates -/

/-- A product's left operand is read along row (b, s). -/
theorem lidx_v0 (b : Fin 4) (s : Fin 4096) (j k : Fin 1024) :
    lidx_main_v0 (ValueIdx.ix3 b s j) k = ValueIdx.ix3 b s k :=
  funext fun a => Fin.ext (by match a with | ⟨0, _⟩ => rfl | ⟨1, _⟩ => rfl | ⟨2, _⟩ => rfl)
/-- A product's right operand is read down column j. -/
theorem ridx_v0 (b : Fin 4) (s : Fin 4096) (j k : Fin 1024) :
    ridx_main_v0 (ValueIdx.ix3 b s j) k = ValueIdx.ix2 k j :=
  funext fun a => Fin.ext (by match a with | ⟨0, _⟩ => rfl | ⟨1, _⟩ => rfl)
/-- A bias row broadcast over the batch and sequence axes is read at the column. -/
theorem bidx_v1 (b : Fin 4) (s : Fin 4096) (j : Fin 1024) :
    idx_main_v1 (idx_main_v2 (ValueIdx.ix3 b s j)) = ValueIdx.ix1 j :=
  funext fun a => Fin.ext (by match a with | ⟨0, _⟩ => rfl)

variable (x0 : (⟨S4x4096x1024, .f32⟩ : BufTy).Contents (Elt Ideal))

/-- The first projection: `x · W1 + b1`. -/
theorem affine_v3 (x1 : (⟨S1024x1024, .f32⟩ : BufTy).Contents (Elt Ideal)) (x2 : (⟨S1024, .f32⟩ : BufTy).Contents (Elt Ideal))
    (b : Fin 4) (s : Fin 4096) (j : Fin 1024) :
    val_main_v3 (F := Ideal) x0 x1 x2 (ValueIdx.ix3 b s j)
      = Cert.Grn.affine (fun k => x0 (ValueIdx.ix3 b s k)) (fun k u => x1 (ValueIdx.ix2 k u)) (fun u => x2 (ValueIdx.ix1 u)) j := by
  rw [val_main_v3_apply, val_main_v0_apply, val_main_v2_apply, val_main_v1_apply, bidx_v1]
  simp only [lidx_v0, ridx_v0, Ideal.addf_def]
  rfl

/-- The hidden layer: the first projection clamped at zero. -/
theorem relu_v4 (x1 : (⟨S1024x1024, .f32⟩ : BufTy).Contents (Elt Ideal)) (x2 : (⟨S1024, .f32⟩ : BufTy).Contents (Elt Ideal))
    (b : Fin 4) (s : Fin 4096) (j : Fin 1024) :
    val_main_v4 (F := Ideal) x0 x1 x2 (ValueIdx.ix3 b s j)
      = max (Cert.Grn.affine (fun k => x0 (ValueIdx.ix3 b s k)) (fun k u => x1 (ValueIdx.ix2 k u)) (fun u => x2 (ValueIdx.ix1 u)) j)
          (Ideal.ofBits .f32 0x00000000#32) := by
  rw [val_main_v4_apply, affine_v3, val_main_call0_v0_apply, val_main_call0_cst_apply]
  rfl

theorem lidx_v5 (b : Fin 4) (s : Fin 4096) (j k : Fin 1024) :
    lidx_main_v5 (ValueIdx.ix3 b s j) k = ValueIdx.ix3 b s k :=
  funext fun a => Fin.ext (by match a with | ⟨0, _⟩ => rfl | ⟨1, _⟩ => rfl | ⟨2, _⟩ => rfl)
theorem ridx_v5 (b : Fin 4) (s : Fin 4096) (j k : Fin 1024) :
    ridx_main_v5 (ValueIdx.ix3 b s j) k = ValueIdx.ix2 k j :=
  funext fun a => Fin.ext (by match a with | ⟨0, _⟩ => rfl | ⟨1, _⟩ => rfl)
theorem bidx_v6 (b : Fin 4) (s : Fin 4096) (j : Fin 1024) :
    idx_main_v6 (idx_main_v7 (ValueIdx.ix3 b s j)) = ValueIdx.ix1 j :=
  funext fun a => Fin.ext (by match a with | ⟨0, _⟩ => rfl)

/-- The value branch: the hidden layer through the second projection. The product reads the hidden layer under its
    sum, so each summand is rewritten at its own position. -/
theorem affine_v8 (x1 x3 : (⟨S1024x1024, .f32⟩ : BufTy).Contents (Elt Ideal)) (x2 x4 : (⟨S1024, .f32⟩ : BufTy).Contents (Elt Ideal))
    (b : Fin 4) (s : Fin 4096) (j : Fin 1024) :
    val_main_v8 (F := Ideal) x0 x1 x2 x3 x4 (ValueIdx.ix3 b s j)
      = Cert.Grn.affine
          (fun u => max (Cert.Grn.affine (fun k => x0 (ValueIdx.ix3 b s k)) (fun k u => x1 (ValueIdx.ix2 k u)) (fun u => x2 (ValueIdx.ix1 u)) u)
            (Ideal.ofBits .f32 0x00000000#32))
          (fun k u => x3 (ValueIdx.ix2 k u)) (fun u => x4 (ValueIdx.ix1 u)) j := by
  rw [val_main_v8_apply, val_main_v5_apply, val_main_v7_apply, val_main_v6_apply, bidx_v6, Ideal.addf_def]
  unfold Cert.Grn.affine
  refine congrArg (· + x4 (ValueIdx.ix1 j)) (Finset.sum_congr rfl fun k _ => ?_)
  rw [lidx_v5, ridx_v5, relu_v4]
  rfl

theorem lidx_v9 (b : Fin 4) (s : Fin 4096) (j k : Fin 1024) :
    lidx_main_v9 (ValueIdx.ix3 b s j) k = ValueIdx.ix3 b s k :=
  funext fun a => Fin.ext (by match a with | ⟨0, _⟩ => rfl | ⟨1, _⟩ => rfl | ⟨2, _⟩ => rfl)
theorem ridx_v9 (b : Fin 4) (s : Fin 4096) (j k : Fin 1024) :
    ridx_main_v9 (ValueIdx.ix3 b s j) k = ValueIdx.ix2 k j :=
  funext fun a => Fin.ext (by match a with | ⟨0, _⟩ => rfl | ⟨1, _⟩ => rfl)
theorem bidx_v10 (b : Fin 4) (s : Fin 4096) (j : Fin 1024) :
    idx_main_v10 (idx_main_v11 (ValueIdx.ix3 b s j)) = ValueIdx.ix1 j :=
  funext fun a => Fin.ext (by match a with | ⟨0, _⟩ => rfl)

/-- The gate's projection: `x · Wg + bg`. -/
theorem affine_v12 (x5 : (⟨S1024x1024, .f32⟩ : BufTy).Contents (Elt Ideal)) (x6 : (⟨S1024, .f32⟩ : BufTy).Contents (Elt Ideal))
    (b : Fin 4) (s : Fin 4096) (j : Fin 1024) :
    val_main_v12 (F := Ideal) x0 x5 x6 (ValueIdx.ix3 b s j)
      = Cert.Grn.affine (fun k => x0 (ValueIdx.ix3 b s k)) (fun k u => x5 (ValueIdx.ix2 k u)) (fun u => x6 (ValueIdx.ix1 u)) j := by
  rw [val_main_v12_apply, val_main_v9_apply, val_main_v11_apply, val_main_v10_apply, bidx_v10]
  simp only [lidx_v9, ridx_v9, Ideal.addf_def]
  rfl

/-- The gate: `1 / (1 + exp (−z))` at the float one is the logistic function of the projection. -/
theorem gate_v18 (x5 : (⟨S1024x1024, .f32⟩ : BufTy).Contents (Elt Ideal)) (x6 : (⟨S1024, .f32⟩ : BufTy).Contents (Elt Ideal))
    (b : Fin 4) (s : Fin 4096) (j : Fin 1024) :
    val_main_v18 (F := Ideal) x0 x5 x6 (ValueIdx.ix3 b s j)
      = Ideal.logistic (Cert.Grn.affine (fun k => x0 (ValueIdx.ix3 b s k)) (fun k u => x5 (ValueIdx.ix2 k u)) (fun u => x6 (ValueIdx.ix1 u)) j) := by
  rw [val_main_v18_apply, val_main_v17_apply, val_main_cst_0_apply, val_main_v16_apply, val_main_v15_apply, val_main_cst_apply,
    val_main_v14_apply, val_main_v13_apply, affine_v12]
  simp only [Ideal.hostDivf_def, Ideal.addf_def, Ideal.hostUnary_exp_def, Ideal.hostNegf_def, Ideal.negf_def, Ideal.ofBits_def,
    Ideal.ofBits_one_f32]
  rfl

theorem lidx_v19 (b : Fin 4) (s : Fin 4096) (j k : Fin 1024) :
    lidx_main_v19 (ValueIdx.ix3 b s j) k = ValueIdx.ix3 b s k :=
  funext fun a => Fin.ext (by match a with | ⟨0, _⟩ => rfl | ⟨1, _⟩ => rfl | ⟨2, _⟩ => rfl)
theorem ridx_v19 (b : Fin 4) (s : Fin 4096) (j k : Fin 1024) :
    ridx_main_v19 (ValueIdx.ix3 b s j) k = ValueIdx.ix2 k j :=
  funext fun a => Fin.ext (by match a with | ⟨0, _⟩ => rfl | ⟨1, _⟩ => rfl)
theorem bidx_v20 (b : Fin 4) (s : Fin 4096) (j : Fin 1024) :
    idx_main_v20 (idx_main_v21 (ValueIdx.ix3 b s j)) = ValueIdx.ix1 j :=
  funext fun a => Fin.ext (by match a with | ⟨0, _⟩ => rfl)

/-- The skip branch: `x · Ws + bs`. -/
theorem affine_v22 (x7 : (⟨S1024x1024, .f32⟩ : BufTy).Contents (Elt Ideal)) (x8 : (⟨S1024, .f32⟩ : BufTy).Contents (Elt Ideal))
    (b : Fin 4) (s : Fin 4096) (j : Fin 1024) :
    val_main_v22 (F := Ideal) x0 x7 x8 (ValueIdx.ix3 b s j)
      = Cert.Grn.affine (fun k => x0 (ValueIdx.ix3 b s k)) (fun k u => x7 (ValueIdx.ix2 k u)) (fun u => x8 (ValueIdx.ix1 u)) j := by
  rw [val_main_v22_apply, val_main_v19_apply, val_main_v21_apply, val_main_v20_apply, bidx_v20]
  simp only [lidx_v19, ridx_v19, Ideal.addf_def]
  rfl

variable (x1 x3 x5 x7 : (⟨S1024x1024, .f32⟩ : BufTy).Contents (Elt Ideal))
    (x2 x4 x6 x8 : (⟨S1024, .f32⟩ : BufTy).Contents (Elt Ideal))

/-- The row before normalisation: value times gate plus skip. -/
theorem mixed_v24 (b : Fin 4) (s : Fin 4096) (q : Fin 1024) :
    val_main_v24 (F := Ideal) x0 x1 x2 x3 x4 x5 x6 x7 x8 (ValueIdx.ix3 b s q)
      = Cert.Grn.mixed (fun k => x0 (ValueIdx.ix3 b s k))
          (fun k u => x1 (ValueIdx.ix2 k u)) (fun k u => x5 (ValueIdx.ix2 k u)) (fun k u => x7 (ValueIdx.ix2 k u)) (fun k u => x3 (ValueIdx.ix2 k u))
          (fun u => x2 (ValueIdx.ix1 u)) (fun u => x6 (ValueIdx.ix1 u)) (fun u => x8 (ValueIdx.ix1 u)) (fun u => x4 (ValueIdx.ix1 u)) q := by
  rw [val_main_v24_apply, val_main_v23_apply, affine_v8, gate_v18, affine_v22]
  rfl

/-! ## The normalisation -/

variable (b : Fin 4) (s : Fin 4096)

/-- Row (b, s) before normalisation, as the specification writes it. -/
local notation "rowY" =>
  Cert.Grn.mixed (fun k => x0 (ValueIdx.ix3 b s k))
    (fun k u => x1 (ValueIdx.ix2 k u)) (fun k u => x5 (ValueIdx.ix2 k u)) (fun k u => x7 (ValueIdx.ix2 k u)) (fun k u => x3 (ValueIdx.ix2 k u))
    (fun u => x2 (ValueIdx.ix1 u)) (fun u => x6 (ValueIdx.ix1 u)) (fun u => x8 (ValueIdx.ix1 u)) (fun u => x4 (ValueIdx.ix1 u))

/-- A row sum runs along row (b, s). -/
theorem idx_v25 (k : Fin 1024) : idx_main_v25 (ValueIdx.ix2 b s) k = ValueIdx.ix3 b s k :=
  funext fun a => Fin.ext (by match a with | ⟨0, _⟩ => rfl | ⟨1, _⟩ => rfl | ⟨2, _⟩ => rfl)
/-- A row statistic kept with a trailing axis of size one is read at the row. -/
theorem idx_v26 (z : Fin 1) : idx_main_v26 (ValueIdx.ix3 b s z) = ValueIdx.ix2 b s :=
  funext fun a => Fin.ext (by match a with | ⟨0, _⟩ => rfl | ⟨1, _⟩ => rfl)
/-- A row statistic broadcast back along the features is read at the row. -/
theorem idx_v29 (j : Fin 1024) : idx_main_v29 (ValueIdx.ix3 b s j) = ValueIdx.ix3 b s (⟨0, Nat.one_pos⟩ : Fin 1) :=
  funext fun a => Fin.ext (by match a with | ⟨0, _⟩ => rfl | ⟨1, _⟩ => rfl | ⟨2, _⟩ => rfl)

/-- The row's sum, from the float zero. -/
theorem sum_v25 :
    val_main_v25 (F := Ideal) x0 x1 x2 x3 x4 x5 x6 x7 x8 (ValueIdx.ix2 b s) = ∑ q : Fin 1024, rowY q := by
  rw [val_main_v25_apply, val_main_cst_1_apply, Ideal.ofBits_def, Ideal.ofBits_zero_f32, zero_add]
  refine Finset.sum_congr rfl fun k _ => ?_
  rw [idx_v25, mixed_v24]

/-- The row's mean. -/
theorem mean_v28 (z : Fin 1) :
    val_main_v28 (F := Ideal) x0 x1 x2 x3 x4 x5 x6 x7 x8 (ValueIdx.ix3 b s z) = Cert.Grn.mean rowY := by
  rw [val_main_v28_apply, val_main_v26_apply, idx_v26, sum_v25, val_main_v27_apply, val_main_cst_2_apply, Ideal.hostDivf_def,
    Ideal.ofBits_def]
  rfl

/-- The row less its mean, as the variance reads it. -/
theorem centred_v30 (q : Fin 1024) :
    val_main_v30 (F := Ideal) x0 x1 x2 x3 x4 x5 x6 x7 x8 (ValueIdx.ix3 b s q) = rowY q - Cert.Grn.mean rowY := by
  rw [val_main_v30_apply, mixed_v24, val_main_v29_apply, idx_v29, mean_v28, Ideal.subf_def]

theorem idx_v32 (k : Fin 1024) : idx_main_v32 (ValueIdx.ix2 b s) k = ValueIdx.ix3 b s k :=
  funext fun a => Fin.ext (by match a with | ⟨0, _⟩ => rfl | ⟨1, _⟩ => rfl | ⟨2, _⟩ => rfl)
theorem idx_v33 (z : Fin 1) : idx_main_v33 (ValueIdx.ix3 b s z) = ValueIdx.ix2 b s :=
  funext fun a => Fin.ext (by match a with | ⟨0, _⟩ => rfl | ⟨1, _⟩ => rfl)

/-- The sum of the squared deviations, from the float zero. -/
theorem sum_v32 :
    val_main_v32 (F := Ideal) x0 x1 x2 x3 x4 x5 x6 x7 x8 (ValueIdx.ix2 b s)
      = ∑ q : Fin 1024, (rowY q - Cert.Grn.mean rowY) * (rowY q - Cert.Grn.mean rowY) := by
  rw [val_main_v32_apply, val_main_cst_3_apply, Ideal.ofBits_def, Ideal.ofBits_zero_f32, zero_add]
  refine Finset.sum_congr rfl fun k _ => ?_
  rw [idx_v32, val_main_v31_apply, centred_v30, Ideal.mulf_def]

/-- The row's variance: the mean of the squared deviations. -/
theorem var_v35 (z : Fin 1) :
    val_main_v35 (F := Ideal) x0 x1 x2 x3 x4 x5 x6 x7 x8 (ValueIdx.ix3 b s z)
      = Cert.Grn.mean (fun q => (rowY q - Cert.Grn.mean rowY) * (rowY q - Cert.Grn.mean rowY)) := by
  rw [val_main_v35_apply, val_main_v33_apply, idx_v33, sum_v32, val_main_v34_apply, val_main_cst_4_apply, Ideal.hostDivf_def,
    Ideal.ofBits_def]
  rfl

theorem idx_v36 (j : Fin 1024) : idx_main_v36 (ValueIdx.ix3 b s j) = ValueIdx.ix3 b s (⟨0, Nat.one_pos⟩ : Fin 1) :=
  funext fun a => Fin.ext (by match a with | ⟨0, _⟩ => rfl | ⟨1, _⟩ => rfl | ⟨2, _⟩ => rfl)
theorem idx_v41 (j : Fin 1024) : idx_main_v41 (ValueIdx.ix3 b s j) = ValueIdx.ix3 b s (⟨0, Nat.one_pos⟩ : Fin 1) :=
  funext fun a => Fin.ext (by match a with | ⟨0, _⟩ => rfl | ⟨1, _⟩ => rfl | ⟨2, _⟩ => rfl)
theorem bidx_v43 (j : Fin 1024) : idx_main_v43 (idx_main_v44 (ValueIdx.ix3 b s j)) = ValueIdx.ix1 j :=
  funext fun a => Fin.ext (by match a with | ⟨0, _⟩ => rfl)
theorem bidx_v46 (j : Fin 1024) : idx_main_v46 (idx_main_v47 (ValueIdx.ix3 b s j)) = ValueIdx.ix1 j :=
  funext fun a => Fin.ext (by match a with | ⟨0, _⟩ => rfl)

/-- The row less its mean, as the result reads it. -/
theorem centred_v37 (q : Fin 1024) :
    val_main_v37 (F := Ideal) x0 x1 x2 x3 x4 x5 x6 x7 x8 (ValueIdx.ix3 b s q) = rowY q - Cert.Grn.mean rowY := by
  rw [val_main_v37_apply, mixed_v24, val_main_v36_apply, idx_v36, mean_v28, Ideal.subf_def]

/-- The inverse standard deviation: the reciprocal square root of the variance plus ε. -/
theorem rstd_v40 (z : Fin 1) :
    val_main_v40 (F := Ideal) x0 x1 x2 x3 x4 x5 x6 x7 x8 (ValueIdx.ix3 b s z)
      = Ideal.rsqrt (Cert.Grn.mean (fun q => (rowY q - Cert.Grn.mean rowY) * (rowY q - Cert.Grn.mean rowY))
          + Ideal.ofBits .f32 0x3A83126F#32) := by
  rw [val_main_v40_apply, val_main_v39_apply, var_v35, val_main_v38_apply, val_main_cst_5_apply, Ideal.hostUnary_rsqrt_def,
    Ideal.addf_def, Ideal.ofBits_def]

end Stages

/-- THE REFERENCE AT AN INDEX: element (b, s, j) of its result is column j of the specification's output row for
    row (b, s) of the input. -/
theorem ref_apply (x0 : (⟨S4x4096x1024, .f32⟩ : BufTy).Contents (Elt Ideal)) (x1 x3 x5 x7 : (⟨S1024x1024, .f32⟩ : BufTy).Contents (Elt Ideal))
    (x2 x4 x6 x8 x9 x10 : (⟨S1024, .f32⟩ : BufTy).Contents (Elt Ideal)) (b : Fin 4) (s : Fin 4096) (j : Fin 1024) :
    Cert.ReferenceIdeal.Read.val_main_v48 (F := Ideal) x0 x1 x2 x3 x4 x5 x6 x7 x8 x9 x10 (ValueIdx.ix3 b s j)
      = Cert.Grn.rowOut (fun k => x0 (ValueIdx.ix3 b s k))
          (fun k u => x1 (ValueIdx.ix2 k u)) (fun k u => x5 (ValueIdx.ix2 k u)) (fun k u => x7 (ValueIdx.ix2 k u)) (fun k u => x3 (ValueIdx.ix2 k u))
          (fun u => x2 (ValueIdx.ix1 u)) (fun u => x6 (ValueIdx.ix1 u)) (fun u => x8 (ValueIdx.ix1 u)) (fun u => x4 (ValueIdx.ix1 u))
          (fun u => x9 (ValueIdx.ix1 u)) (fun u => x10 (ValueIdx.ix1 u)) j := by
  rw [val_main_v48_apply, val_main_v45_apply, val_main_v42_apply, centred_v37, val_main_v41_apply, idx_v41, rstd_v40,
    val_main_v44_apply, val_main_v43_apply, bidx_v43, val_main_v47_apply, val_main_v46_apply, bidx_v46, Ideal.addf_def,
    Ideal.mulf_def, Ideal.mulf_def]
  rfl

end Cert.ReferenceIdeal.RefValue

end
-- ==== Proof.RefResult.lean ====
/-
  The reference's result array is the network of its arguments: entry (b, s, j) of the last stage is feature j of the
  output row computed from input row (b, s).
-/
import proofs.«157899_j67027259621479_2_alg».proof.Proof.RefSide
import proofs.«157899_j67027259621479_2_alg».proof.Proof.GrnNetwork

noncomputable section

namespace Cert.ReferenceIdeal.RefValue

open Cert.ReferenceIdeal Cert.ReferenceIdeal.Gen Idealize.ShloMosaic Idealize.ShloMosaic.TcCoe Idealize.SL.Sem

/-- The run's result term, from any launch memory, is the network of the argument arrays. -/
theorem result_eq (m : (ℓ : Loc nD τ sig) → Buf (Elt Ideal) ℓ) (c : Dev nD) :
    Cert.ReferenceIdeal.Value.res_main_v48 m c
      = Cert.Grn.network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  rw [Cert.ReferenceIdeal.Read.val_main_v48_eq]
  funext i
  obtain ⟨b, s, j, rfl⟩ : ∃ (b : Fin 4) (s : Fin 4096) (j : Fin 1024), i = ValueIdx.ix3 b s j := ⟨i 0, i 1, i 2, ValueIdx.eq_ix3 i⟩
  exact (ref_apply _ _ _ _ _ _ _ _ _ _ _ b s j).trans (Cert.Grn.network_apply _ _ _ _ _ _ _ _ _ _ _ b s j).symm

end Cert.ReferenceIdeal.RefValue

end
-- ==== Proof.lean ====
/-
  The certificate of the fused gated residual network kernel against its jnp reference.

  The kernel flattens the [4, 4096, 1024] input to 16384 rows, concatenates the three weight matrices that read the raw
  row (hidden | gate | skip) into one [1024, 3072] matrix and their biases into one row of 3072, and runs one
  pallas_call over 32 blocks of 512 rows: one product with the concatenated matrix, whose three column panels are the
  three projections; the hidden panel through max(·, 0) and the second matrix; the gate panel through the logistic
  function; value · gate + skip; and a normalisation of each row over its 1024 features.  The reference computes the four
  products separately on the whole array.  Over the extended reals a change of float format is the identity and every
  product entry is a plain sum, so both programs compute, for every input row, the one function `Cert.Grn.rowOut` of
  that row and the argument arrays: column 1024 n + u of the concatenated product is column u of the n-th projection,
  and no sum is regrouped, so the comparison uses no algebraic law beyond the definitions and needs no finiteness.

  The frames: the pallas_call's body is run once symbolically on arbitrary blocks, and the pipeline's launch theorem
  for a region between host lines gives termination, no fault and the argument arrays unchanged, at both float
  instances; the reference is a straight line of host operations.  Nothing of the kernel was rewritten by the ideal
  pass, so the idealization claim is trivial.
-/
import proofs.«157899_j67027259621479_2_alg».proof.Defs
import proofs.«157899_j67027259621479_2_alg».proof.Proof.Gen.Kernel
import proofs.«157899_j67027259621479_2_alg».proof.Proof.Gen.KernelIdeal
import proofs.«157899_j67027259621479_2_alg».proof.Proof.Gen.ReferenceIdeal
import proofs.«157899_j67027259621479_2_alg».proof.Proof.Gen.Pre_finite_inputs
import proofs.«157899_j67027259621479_2_alg».proof.Proof.GrnFrameK
import proofs.«157899_j67027259621479_2_alg».proof.Proof.GrnResult
import proofs.«157899_j67027259621479_2_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Grn.frame m ρ

theorem frame_kernel_ideal : Cert.frame_KernelIdeal := fun m ρ _ => Cert.KernelIdeal.Grn.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the network of their arguments; the arguments agree. -/
theorem algebraic : Cert.algebraic_KernelIdeal_ReferenceIdeal := fun m ρ m' ρ' _ hagree =>
  ⟨fun c => Cert.Grn.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.GrnResult.kernel_run m ρ,
    (θ_run Cert.ReferenceIdeal.defs _ _).mono (fun _ h c =>
      ⟨(h c).1.trans ((Cert.ReferenceIdeal.RefValue.result_eq m' c).trans
        (Cert.Grn.network_congr (hagree c).1 (hagree c).2.1 (hagree c).2.2.1 (hagree c).2.2.2.1 (hagree c).2.2.2.2.1
          (hagree c).2.2.2.2.2.1 (hagree c).2.2.2.2.2.2.1 (hagree c).2.2.2.2.2.2.2.1 (hagree c).2.2.2.2.2.2.2.2.1
          (hagree c).2.2.2.2.2.2.2.2.2.1 (hagree c).2.2.2.2.2.2.2.2.2.2)),
       (h c).2⟩) (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
